-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x256 .f32) (main_arg10 : FVec F S256x2 .f32) (main_arg11 : FVec F S2 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256x2 .f32 := Host.absf main_arg10
  let main_cst_14 : FVec F S_ .f32 := constant S_ .f32 0x7F800000#32
  let main_v40 : FVec F S256x2 .f32 := broadcastInDim S256x2 ![] bcast_S_S256x2 main_cst_14
  let main_v41 : IVec S256x2 1 := cmpf .olt main_v39 main_v40
  let main_c_15 : IVec S_ 1 := constantI S_ 1 1#1
  let main_v42 : IVec S_ 1 := (fun x v => Host.reduce IntOp.andi x v reducesTo_S256x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg6 : FVec F S256x256 .f32) (main_arg7 : FVec F S256x256 .f32) (main_arg8 : FVec F S256 .f32) (main_arg9 : FVec F S128x256 .f32) (main_arg10 : FVec F S256x2 .f32) (main_arg11 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S128x256 .f32) (main_arg4 : FVec F S128x256 .f32) (main_arg5 : FVec F S256 .f32) (main_arg6 : FVec F S256x256 .f32) (main_arg7 : FVec F S256x256 .f32) (main_arg8 : FVec F S256 .f32) (main_arg9 : FVec F S128x256 .f32) (main_arg10 : FVec F S256x2 .f32) (main_arg11 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S800000x256 : Shape := ⟨2, ![800000, 256]⟩
abbrev S50000x2 : Shape := ⟨2, ![50000, 2]⟩
abbrev S2000x2 : Shape := ⟨2, ![2000, 2]⟩
abbrev S1x2 : Shape := ⟨2, ![1, 2]⟩

abbrev nBuf : Space → Nat
  | .hbm => 66
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S128x256, .f32⟩
  | .hbm, ⟨10, _⟩ => ⟨S256x2, .f32⟩
  | .hbm, ⟨11, _⟩ => ⟨S2, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S50000x256, .f32⟩
  | .hbm, ⟨50, _⟩ => ⟨S800000x1, .i32⟩
  | .hbm, ⟨51, _⟩ => ⟨S50000x256, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S50000x1, .f32⟩
  | .hbm, ⟨63, _⟩ => ⟨S50000x256, .f32⟩
  | .hbm, ⟨64, _⟩ => ⟨S50000x256, .f32⟩
  | .hbm, ⟨65, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x128, .f32⟩
  | .local _ .vmem, ⟨14, _⟩ => ⟨S2000x128, .f32⟩
  | .local _ .vmem, ⟨15, _⟩ => ⟨S256x256, .f32⟩
  | .local _ .vmem, ⟨16, _⟩ => ⟨S256x256, .f32⟩
  | .local _ .vmem, ⟨17, _⟩ => ⟨S256, .f32⟩
  | .local _ .vmem, ⟨18, _⟩ => ⟨S128x256, .f32⟩
  | .local _ .vmem, ⟨19, _⟩ => ⟨S256x2, .f32⟩
  | .local _ .vmem, ⟨20, _⟩ => ⟨S2, .f32⟩
  | .local _ .vmem, ⟨21, _⟩ => ⟨S2000x2, .f32⟩
  | .local _ .vmem, ⟨22, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_cst_8 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_call1_v0 : Ref sig .tc := ⟨.hbm, 59, rfl⟩
abbrev main_call1_v1 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256x2_S256x2_0_0 : ∀ a, (![0, 0] : Fin 2 → Nat) a + S256x2.size a ≤ S256x2.size a
  h_S256x2 : 0 < S256x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .f32 = 32 ∨ (Rect.block (s := S128x256) S128x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x2.size a ≤ S256x2.size a
  hwx1_7 : ∀ i : grid1.Coords, EltTy.bits .f32 = 32 ∨ (Rect.block (s := S256x2) S256x2.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S2.size a ≤ S2.size a
  hwx1_8 : ∀ i : grid1.Coords, EltTy.bits .f32 = 32 ∨ (Rect.block (s := S2) S2.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x2.size a ≤ S50000x2.size a
  hwx1_9 : ∀ i : grid1.Coords, EltTy.bits .f32 = 32 ∨ (Rect.block (s := S50000x2) S2000x2.size (cc1_transform_9 i) (hinb1_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S256x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S2000x2.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S50000x256 : Shape := ⟨2, ![50000, 256]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S800000x256 : Shape := ⟨2, ![800000, 256]⟩
abbrev S50000x2 : Shape := ⟨2, ![50000, 2]⟩
abbrev S1x2 : Shape := ⟨2, ![1, 2]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S128x256, .f32⟩
  | .hbm, ⟨10, _⟩ => ⟨S256x2, .f32⟩
  | .hbm, ⟨11, _⟩ => ⟨S2, .f32⟩
  | .hbm, ⟨12, _⟩ => ⟨S50000x256, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x256, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S1x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S50000x256, .f32⟩
  | .hbm, ⟨81, _⟩ => ⟨S50000x2, .f32⟩
  | .hbm, ⟨82, _⟩ => ⟨S1x2, .f32⟩
  | .hbm, ⟨83, _⟩ => ⟨S50000x2, .f32⟩
  | .hbm, ⟨84, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_cst : Ref sig .tc := ⟨.hbm, 44, rfl⟩
abbrev main_call1_v0 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_call2_v0 : Ref sig .tc := ⟨.hbm, 68, rfl⟩
abbrev main_call2_v1 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x128_S128x256_S50000x256_1_0_0_1_n_n_wf : DotDims.WF S50000x128 S128x256 S50000x256 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x2_S50000x2_1_0_0_1_n_n_wf : DotDims.WF S50000x256 S256x2 S50000x2 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KernelRun.lean ====
/-
  The kernel program's run with EVERY buffer named.

  The program is two kernel regions among stretches of host operations. Its run ends with each buffer that lives for the
  whole program holding the last boundary's contents: the fold, through the host stretches and the two regions, of the
  memory at launch. The frame certificate reads only the argument arrays off that fold; a value claim reads the result
  array too, so the same run is re-posted here with every such buffer at the fold.
-/
import proofs.«168556_j30442728194375_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in every final state each buffer that
    lives for the whole program holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Run
-- ==== Proof.Rows.lean ====
/-
  The two layers of the network, one output row at a time, over the extended reals.

  Every node's output row depends on that node's own input rows only: its feature row, its hidden row and the rows of
  the two neighbourhood means at the same node. So both layers are stated here as functions of ROWS (a row is a function
  of the feature coordinate) and of the weight matrices; which node the rows belong to does not enter. A program that
  computes the layers for all nodes at once and one that computes them a block of nodes at a time are then the same
  function of the same rows.

  * first layer, output coordinate q:   max ( (∑ₖ x k · Wself (k, q) + ∑ₖ a k · Wneigh (k, q)) + b q , 0 )
  * second layer before the head, coordinate j:
        ((∑ₖ h k · Wself2 (k, j) + ∑ₖ a k · Wneigh2 (k, j)) + b2 j) + ∑ₖ x k · Wres (k, j)
  * the head, output coordinate q:      ∑ⱼ (second layer at j) · Wmlp (j, q) + bmlp q

  The sums are associated exactly as written: no law of the extended reals beyond the definitions is used anywhere.
-/
import Idealize.ShloMosaic.Lib.ValueIdx
import Idealize.ShloMosaic.PureOps.Ideal

noncomputable section

open scoped BigOperators

namespace Cert.SageRows

open Idealize.ShloMosaic Idealize.ShloMosaic.ValueIdx

/-- The first layer's output row at coordinate `q`, from the node's feature row `xr` and the row `ar` of the mean of its
    in-neighbours' features: the two products summed, the bias added, the result clamped below at zero. -/
def layer1 (xr ar : Fin 128 → EReal) (Ws Wn : (⟨2, ![128, 256]⟩ : Shape).Idx → EReal)
    (b : (⟨1, ![256]⟩ : Shape).Idx → EReal) (q : Fin 256) : EReal :=
  max (((∑ k : Fin 128, xr k * Ws (ix2 k q)) + ∑ k : Fin 128, ar k * Wn (ix2 k q)) + b (ix1 q))
    (Ideal.ofBits .f32 0x00000000#32)

/-- The second layer's row at coordinate `j`, before the head: from the node's hidden row `hr`, the row `ar` of the mean
    of its in-neighbours' hidden rows, and its feature row `xr` (the residual connection). -/
def layer2 (hr ar : Fin 256 → EReal) (xr : Fin 128 → EReal) (Ws2 Wn2 : (⟨2, ![256, 256]⟩ : Shape).Idx → EReal)
    (b2 : (⟨1, ![256]⟩ : Shape).Idx → EReal) (Wres : (⟨2, ![128, 256]⟩ : Shape).Idx → EReal) (j : Fin 256) : EReal :=
  (((∑ k : Fin 256, hr k * Ws2 (ix2 k j)) + ∑ k : Fin 256, ar k * Wn2 (ix2 k j)) + b2 (ix1 j))
    + ∑ k : Fin 128, xr k * Wres (ix2 k j)

/-- The network's output row at coordinate `q`: the second layer's row through the two-column head. -/
def head (hr ar : Fin 256 → EReal) (xr : Fin 128 → EReal) (Ws2 Wn2 : (⟨2, ![256, 256]⟩ : Shape).Idx → EReal)
    (b2 : (⟨1, ![256]⟩ : Shape).Idx → EReal) (Wres : (⟨2, ![128, 256]⟩ : Shape).Idx → EReal)
    (Wmlp : (⟨2, ![256, 2]⟩ : Shape).Idx → EReal) (bmlp : (⟨1, ![2]⟩ : Shape).Idx → EReal) (q : Fin 2) : EReal :=
  (∑ j : Fin 256, layer2 hr ar xr Ws2 Wn2 b2 Wres j * Wmlp (ix2 j q)) + bmlp (ix1 q)

end Cert.SageRows
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.KernelBody.lean ====
/-
  What one grid point of each kernel stores, read at a row and a column of its block.

  Both kernel bodies load their blocks whole, round them to bf16 on the way into the matrix unit (the identity on the
  extended reals), multiply into a zero accumulator (a plain sum of products), add a bias row broadcast over the block's
  rows, and store the block whole. Entry (p, q) of the stored block therefore depends on row p of each row-blocked operand
  and on the whole weight matrices: it is the layer's row function (Rows.lean) of those rows.
-/
import proofs.«168556_j30442728194375_1_alg».proof.Proof.Gen.KernelIdeal.Skeleton
import proofs.«168556_j30442728194375_1_alg».proof.Proof.Rows
import proofs.«168556_j30442728194375_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.SageRows

/-- A [256] bias re-laid as one row [1, 256] and repeated over 2000 rows reads, at (p, q), the bias at q. -/
theorem bias256_apply (b : Vec Ideal S256 .f32) (p : Fin 2000) (q : Fin 256) :
    broadcastTo S2000x256 (shapeCast S1x256 b shapeCasts_S256_S1x256) broadcasts_S1x256_S2000x256 (ix2 p q) = b (ix1 q) :=
  (broadcastTo_1b_ab_apply _ broadcasts_S1x256_S2000x256 p q).trans (shapeCast_a_1a_apply b shapeCasts_S256_S1x256 0 q)

/-- A [2] bias re-laid as one row [1, 2] and repeated over 2000 rows reads, at (p, q), the bias at q. -/
theorem bias2_apply (b : Vec Ideal S2 .f32) (p : Fin 2000) (q : Fin 2) :
    broadcastTo S2000x2 (shapeCast S1x2 b shapeCasts_S2_S1x2) broadcasts_S1x2_S2000x2 (ix2 p q) = b (ix1 q) :=
  (broadcastTo_1b_ab_apply _ broadcasts_S1x2_S2000x2 p q).trans (shapeCast_a_1a_apply b shapeCasts_S2_S1x2 0 q)

/-- [2000,128]·[128,256] into zero, at (p, q): the sum over k of row p of the left operand against column q. -/
theorem mm128_apply (l : FVec Ideal S2000x128 .bf16) (r : FVec Ideal S128x256 .bf16) (p : Fin 2000) (q : Fin 256) :
    matmul dot_S2000x128_S128x256_S2000x256_1_0_0_1_n_n none l r (constant S2000x256 .f32 0x00000000#32) (ix2 p q)
      = ∑ k : Fin 128, l (ix2 p k) * r (ix2 k q) :=
  PlainMatmul.matmul_zero_apply dot_S2000x128_S128x256_S2000x256_1_0_0_1_n_n rfl rfl rfl rfl rfl rfl none l r p q

/-- [2000,256]·[256,256] into zero, at (p, q). -/
theorem mm256_apply (l : FVec Ideal S2000x256 .bf16) (r : FVec Ideal S256x256 .bf16) (p : Fin 2000) (q : Fin 256) :
    matmul dot_S2000x256_S256x256_S2000x256_1_0_0_1_n_n none l r (constant S2000x256 .f32 0x00000000#32) (ix2 p q)
      = ∑ k : Fin 256, l (ix2 p k) * r (ix2 k q) :=
  PlainMatmul.matmul_zero_apply dot_S2000x256_S256x256_S2000x256_1_0_0_1_n_n rfl rfl rfl rfl rfl rfl none l r p q

/-- [2000,256]·[256,2] into zero, at (p, q). -/
theorem mmHead_apply (l : FVec Ideal S2000x256 .bf16) (r : FVec Ideal S256x2 .bf16) (p : Fin 2000) (q : Fin 2) :
    matmul dot_S2000x256_S256x2_S2000x2_1_0_0_1_n_n none l r (constant S2000x2 .f32 0x00000000#32) (ix2 p q)
      = ∑ k : Fin 256, l (ix2 p k) * r (ix2 k q) :=
  PlainMatmul.matmul_zero_apply dot_S2000x256_S256x2_S2000x2_1_0_0_1_n_n rfl rfl rfl rfl rfl rfl none l r p q

/-- THE FIRST KERNEL'S STORED BLOCK at (p, q): the first layer's row function of row p of the feature block and of the
    neighbourhood-mean block. -/
theorem pay0_apply (x0 x1 : Vec Ideal S2000x128 .f32) (x2 x3 : Vec Ideal S128x256 .f32) (x4 : Vec Ideal S256 .f32)
    (p : Fin 2000) (q : Fin 256) :
    k0_pay1 (F := Ideal) x0 x1 x2 x3 x4 (ix2 p q)
      = layer1 (fun k => x0 (ix2 p k)) (fun k => x1 (ix2 p k)) x2 x3 x4 q := by
  unfold k0_pay1 layer1
  rw [shapeCast_self]
  refine congrArg₂ max (congrArg₂ (· + ·) (congrArg₂ (· + ·) ?_ ?_) ?_) rfl
  · exact mm128_apply _ _ p q
  · exact mm128_apply _ _ p q
  · exact bias256_apply x4 p q

/-- The second kernel's block before the head, at (p, j): the second layer's row function of row p of the hidden block,
    of the neighbourhood-mean block and of the feature block. -/
theorem hidden1_apply (v0 v3 : Vec Ideal S2000x256 .f32) (v6 : Vec Ideal S2000x128 .f32) (v8 v10 : Vec Ideal S256x256 .f32)
    (v12 : Vec Ideal S128x256 .f32) (v17 : Vec Ideal S256 .f32) (p : Fin 2000) (j : Fin 256) :
    addf (addf (addf
        (matmul dot_S2000x256_S256x256_S2000x256_1_0_0_1_n_n none (truncf .bf16 v0 bitsLt_bf16_f32) (truncf .bf16 v8 bitsLt_bf16_f32) (constant (F := Ideal) S2000x256 .f32 0x00000000#32))
        (matmul dot_S2000x256_S256x256_S2000x256_1_0_0_1_n_n none (truncf .bf16 v3 bitsLt_bf16_f32) (truncf .bf16 v10 bitsLt_bf16_f32) (constant (F := Ideal) S2000x256 .f32 0x00000000#32)))
        (broadcastTo S2000x256 (shapeCast S1x256 v17 shapeCasts_S256_S1x256) broadcasts_S1x256_S2000x256))
        (matmul dot_S2000x128_S128x256_S2000x256_1_0_0_1_n_n none (truncf .bf16 v6 bitsLt_bf16_f32) (truncf .bf16 v12 bitsLt_bf16_f32) (constant (F := Ideal) S2000x256 .f32 0x00000000#32))
        (ix2 p j)
      = layer2 (fun k => v0 (ix2 p k)) (fun k => v3 (ix2 p k)) (fun k => v6 (ix2 p k)) v8 v10 v17 v12 j := by
  unfold layer2
  refine congrArg₂ (· + ·) (congrArg₂ (· + ·) (congrArg₂ (· + ·) ?_ ?_) ?_) ?_
  · exact mm256_apply _ _ p j
  · exact mm256_apply _ _ p j
  · exact bias256_apply v17 p j
  · exact mm128_apply _ _ p j

/-- THE SECOND KERNEL'S STORED BLOCK at (p, q): the head's row function of row p of its three row-blocked operands. -/
theorem pay1_apply (v0 v3 : Vec Ideal S2000x256 .f32) (v6 : Vec Ideal S2000x128 .f32) (v8 v10 : Vec Ideal S256x256 .f32)
    (v12 : Vec Ideal S128x256 .f32) (v17 : Vec Ideal S256 .f32) (v24 : Vec Ideal S256x2 .f32) (v27 : Vec Ideal S2 .f32)
    (p : Fin 2000) (q : Fin 2) :
    k1_pay1 (F := Ideal) v0 v3 v6 v8 v10 v12 v17 v24 v27 (ix2 p q)
      = head (fun k => v0 (ix2 p k)) (fun k => v3 (ix2 p k)) (fun k => v6 (ix2 p k)) v8 v10 v17 v12 v24 v27 q := by
  unfold k1_pay1 head
  rw [shapeCast_self, shapeCast_self]
  refine congrArg₂ (· + ·) ?_ (bias2_apply v27 p q)
  refine (mmHead_apply _ _ p q).trans (Finset.sum_congr rfl fun j _ => ?_)
  exact congrArg (· * v24 (ix2 j q)) (hidden1_apply v0 v3 v6 v8 v10 v12 v17 p j)

end Cert.KernelIdeal.Body
-- ==== Proof.RefRows.lean ====
/-
  The reference read one node at a time.

  The reference computes both layers for all 50000 nodes at once; read at a row r and a column q, each of its stages is
  the layer's row function (Rows.lean) of row r of that stage's operands: the first layer's hidden array of row r of
  the features and of the mean of the in-neighbours' features; the result of row r of the hidden array, of the mean of
  the in-neighbours' hidden rows, and of the features. The two neighbourhood means (a gather along the edges, a
  scatter-add into the destination nodes, a division by the clamped in-degree) are never opened: they stay the
  reference's own stages, applied to whatever array is averaged.
-/
import proofs.«168556_j30442728194375_1_alg».proof.Proof.Gen.ReferenceIdeal.Read
import proofs.«168556_j30442728194375_1_alg».proof.Proof.Rows

noncomputable section

open scoped BigOperators

namespace Cert.ReferenceIdeal.Rows

open Idealize.ShloMosaic Idealize.ShloMosaic.ValueIdx Cert.ReferenceIdeal Cert.ReferenceIdeal.Read Cert.SageRows

/-- The mean of the in-neighbours' rows of a [50000, 256] array `h`, as the reference computes it: the rows of `h` gathered
    along the edges' sources `x1`, added into the edges' destinations `x2`, and divided by the destinations' in-degrees
    clamped below at one. Its stages are the reference's own and are never opened. -/
def mean256 (h : (⟨S50000x256, .f32⟩ : BufTy).Contents (Elt Ideal)) (x1 x2 : (⟨S800000, .i32⟩ : BufTy).Contents (Elt Ideal)) :
    (⟨S50000x256, .f32⟩ : BufTy).Contents (Elt Ideal) :=
  (Host.divf (F := Ideal) (Host.scatterAdd (F := Ideal) scatter_S50000x256_S800000x1_S800000x256_1_0_0_1 (val_main_v33 (F := Ideal)) (val_main_v34 (F := Ideal) x2)
    (Host.gather gather_S50000x256_S800000x1_S800000x256_1_0_n_n_0_1_1256 h (val_main_v31 (F := Ideal) x1))) (val_main_v42 (F := Ideal) x2)
    : FVec Ideal S50000x256 .f32)

/-- The reference's second neighbourhood mean is that mean of its hidden array. -/
theorem val_main_v43_eq (x0 : (⟨S50000x128, .f32⟩ : BufTy).Contents (Elt Ideal)) (x1 x2 : (⟨S800000, .i32⟩ : BufTy).Contents (Elt Ideal))
    (x3 x4 : (⟨S128x256, .f32⟩ : BufTy).Contents (Elt Ideal)) (x5 : (⟨S256, .f32⟩ : BufTy).Contents (Elt Ideal)) :
    val_main_v43 (F := Ideal) x0 x1 x2 x3 x4 x5 = mean256 (val_main_v24 (F := Ideal) x0 x1 x2 x3 x4 x5) x1 x2 := rfl

/-- THE HIDDEN ARRAY at (r, q): the first layer's row function of row r of the features and of their neighbourhood mean. -/
theorem hidden_apply (x0 : (⟨S50000x128, .f32⟩ : BufTy).Contents (Elt Ideal)) (x1 x2 : (⟨S800000, .i32⟩ : BufTy).Contents (Elt Ideal))
    (x3 x4 : (⟨S128x256, .f32⟩ : BufTy).Contents (Elt Ideal)) (x5 : (⟨S256, .f32⟩ : BufTy).Contents (Elt Ideal))
    (r : Fin 50000) (q : Fin 256) :
    val_main_v24 (F := Ideal) x0 x1 x2 x3 x4 x5 (ix2 r q)
      = layer1 (fun k => x0 (ix2 r k)) (fun k => val_main_v18 (F := Ideal) x0 x1 x2 (ix2 r k)) x3 x4 x5 q := by
  have el0 : ∀ k, lidx_main_v0 (ix2 r q) k = ix2 r k := fun k => funext fun a => Fin.ext (by
    match a with | ⟨0, _⟩ => rfl | ⟨1, _⟩ => rfl)
  have er0 : ∀ k, ridx_main_v0 (ix2 r q) k = ix2 k q := fun k => funext fun a => Fin.ext (by
    match a with | ⟨0, _⟩ => rfl | ⟨1, _⟩ => rfl)
  have el1 : ∀ k, lidx_main_v19 (ix2 r q) k = ix2 r k := fun k => funext fun a => Fin.ext (by
    match a with | ⟨0, _⟩ => rfl | ⟨1, _⟩ => rfl)
  have er1 : ∀ k, ridx_main_v19 (ix2 r q) k = ix2 k q := fun k => funext fun a => Fin.ext (by
    match a with | ⟨0, _⟩ => rfl | ⟨1, _⟩ => rfl)
  have eb : idx_main_v21 (idx_main_v22 (ix2 r q)) = ix1 q := funext fun a => Fin.ext (by
    match a with | ⟨0, _⟩ => rfl)
  rw [val_main_v24_apply, val_main_v23_apply, val_main_v20_apply, val_main_v0_apply, val_main_v19_apply, val_main_v22_apply,
    val_main_v21_apply, val_main_call1_v0_apply, val_main_call1_cst_apply]
  simp only [el0, er0, el1, er1, eb]
  rfl

/-- The second layer before the head at (r, j): the second layer's row function of row r of the hidden array, of its
    neighbourhood mean, and of the features. -/
theorem layer2_apply (x0 : (⟨S50000x128, .f32⟩ : BufTy).Contents (Elt Ideal)) (x1 x2 : (⟨S800000, .i32⟩ : BufTy).Contents (Elt Ideal))
    (x3 x4 : (⟨S128x256, .f32⟩ : BufTy).Contents (Elt Ideal)) (x5 : (⟨S256, .f32⟩ : BufTy).Contents (Elt Ideal))
    (x6 x7 : (⟨S256x256, .f32⟩ : BufTy).Contents (Elt Ideal)) (x8 : (⟨S256, .f32⟩ : BufTy).Contents (Elt Ideal))
    (x9 : (⟨S128x256, .f32⟩ : BufTy).Contents (Elt Ideal)) (r : Fin 50000) (j : Fin 256) :
    val_main_v50 (F := Ideal) x0 x1 x2 x3 x4 x5 x6 x7 x8 x9 (ix2 r j)
      = layer2 (fun k => val_main_v24 (F := Ideal) x0 x1 x2 x3 x4 x5 (ix2 r k))
          (fun k => val_main_v43 (F := Ideal) x0 x1 x2 x3 x4 x5 (ix2 r k)) (fun k => x0 (ix2 r k)) x6 x7 x8 x9 j := by
  have el0 : ∀ k, lidx_main_v25 (ix2 r j) k = ix2 r k := fun k => funext fun a => Fin.ext (by
    match a with | ⟨0, _⟩ => rfl | ⟨1, _⟩ => rfl)
  have er0 : ∀ k, ridx_main_v25 (ix2 r j) k = ix2 k j := fun k => funext fun a => Fin.ext (by
    match a with | ⟨0, _⟩ => rfl | ⟨1, _⟩ => rfl)
  have el1 : ∀ k, lidx_main_v44 (ix2 r j) k = ix2 r k := fun k => funext fun a => Fin.ext (by
    match a with | ⟨0, _⟩ => rfl | ⟨1, _⟩ => rfl)
  have er1 : ∀ k, ridx_main_v44 (ix2 r j) k = ix2 k j := fun k => funext fun a => Fin.ext (by
    match a with | ⟨0, _⟩ => rfl | ⟨1, _⟩ => rfl)
  have el2 : ∀ k, lidx_main_v49 (ix2 r j) k = ix2 r k := fun k => funext fun a => Fin.ext (by
    match a with | ⟨0, _⟩ => rfl | ⟨1, _⟩ => rfl)
  have er2 : ∀ k, ridx_main_v49 (ix2 r j) k = ix2 k j := fun k => funext fun a => Fin.ext (by
    match a with | ⟨0, _⟩ => rfl | ⟨1, _⟩ => rfl)
  have eb : idx_main_v46 (idx_main_v47 (ix2 r j)) = ix1 j := funext fun a => Fin.ext (by
    match a with | ⟨0, _⟩ => rfl)
  rw [val_main_v50_apply, val_main_v48_apply, val_main_v45_apply, val_main_v25_apply, val_main_v44_apply, val_main_v47_apply,
    val_main_v46_apply, val_main_v49_apply]
  simp only [el0, er0, el1, er1, el2, er2, eb]
  rfl

/-- THE RESULT at (r, q): the head's row function of row r of the hidden array, of its neighbourhood mean, and of the
    features. -/
theorem result_apply (x0 : (⟨S50000x128, .f32⟩ : BufTy).Contents (Elt Ideal)) (x1 x2 : (⟨S800000, .i32⟩ : BufTy).Contents (Elt Ideal))
    (x3 x4 : (⟨S128x256, .f32⟩ : BufTy).Contents (Elt Ideal)) (x5 : (⟨S256, .f32⟩ : BufTy).Contents (Elt Ideal))
    (x6 x7 : (⟨S256x256, .f32⟩ : BufTy).Contents (Elt Ideal)) (x8 : (⟨S256, .f32⟩ : BufTy).Contents (Elt Ideal))
    (x9 : (⟨S128x256, .f32⟩ : BufTy).Contents (Elt Ideal)) (x10 : (⟨S256x2, .f32⟩ : BufTy).Contents (Elt Ideal))
    (x11 : (⟨S2, .f32⟩ : BufTy).Contents (Elt Ideal)) (r : Fin 50000) (q : Fin 2) :
    val_main_v54 (F := Ideal) x0 x1 x2 x3 x4 x5 x6 x7 x8 x9 x10 x11 (ix2 r q)
      = head (fun k => val_main_v24 (F := Ideal) x0 x1 x2 x3 x4 x5 (ix2 r k))
          (fun k => val_main_v43 (F := Ideal) x0 x1 x2 x3 x4 x5 (ix2 r k)) (fun k => x0 (ix2 r k)) x6 x7 x8 x9 x10 x11 q := by
  have el : ∀ j, lidx_main_v51 (ix2 r q) j = ix2 r j := fun j => funext fun a => Fin.ext (by
    match a with | ⟨0, _⟩ => rfl | ⟨1, _⟩ => rfl)
  have er : ∀ j, ridx_main_v51 (ix2 r q) j = ix2 j q := fun j => funext fun a => Fin.ext (by
    match a with | ⟨0, _⟩ => rfl | ⟨1, _⟩ => rfl)
  have eb : idx_main_v52 (idx_main_v53 (ix2 r q)) = ix1 q := funext fun a => Fin.ext (by
    match a with | ⟨0, _⟩ => rfl)
  rw [val_main_v54_apply, val_main_v51_apply, val_main_v53_apply, val_main_v52_apply]
  simp only [el, er, eb]
  unfold head
  refine congrArg₂ (· + ·) (Finset.sum_congr rfl fun j _ => ?_) rfl
  exact congrArg (· * x10 (ix2 j q)) (layer2_apply x0 x1 x2 x3 x4 x5 x6 x7 x8 x9 r j)

end Cert.ReferenceIdeal.Rows
-- ==== Proof.HostStages.lean ====
/-
  The host operations around the two kernel regions, one stretch at a time.

  Before each region the host computes the mean of the in-neighbours' rows of an array (the features before the first
  region, the hidden array before the second): it gathers the rows along the edges' sources, adds them into the edges'
  destinations, counts each destination's in-degree the same way, clamps the degree below at one and divides. Each
  mean is three stretches of operations (the clamp is a called function, a stretch of its own). Here every buffer a
  region reads is named as a function of the buffers the stretch before it found: the argument arrays are never
  written, so they read back as launched; the mean is the host's own operations applied to the array it averages. The
  gather and the scatter are never opened. The reference applies the same operations to the same arrays, so each
  mean is the reference's own stage.
-/
import proofs.«168556_j30442728194375_1_alg».proof.Proof.Gen.KernelIdeal.Frame
import proofs.«168556_j30442728194375_1_alg».proof.Proof.Gen.ReferenceIdeal.Read
import proofs.«168556_j30442728194375_1_alg».proof.Proof.RefRows
import Idealize.ShloMosaic.Lib.StableHlo.Run
import Idealize.ShloMosaic.PureOps.Ideal

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

/-! ## The mean of the in-neighbours' rows, as the host spells it -/

/-- Each node's in-degree (one added per edge into it, from zero), clamped below at one. -/
def clampedDegree (x2 : IVec S800000 32) : FVec Ideal S50000 .f32 :=
  maximumf (broadcastInDim S50000 ![] bcast_S_S50000 (id (constant (F := Ideal) S_ .f32 0x3F800000#32)))
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 x2)
      (broadcastInDim S800000 ![] bcast_S_S800000 (constant (F := Ideal) S_ .f32 0x3F800000#32)))

/-- The rows of a [50000, 128] array `h` gathered along the edges' sources `x1` (a negative source counted from the end,
    as the host normalises it) and added into the edges' destinations `x2`, starting from zero. -/
def sums128 (h : FVec Ideal S50000x128 .f32) (x1 x2 : IVec S800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 x2)
    (Host.gather gather_S50000x128_S800000x1_S800000x128_1_0_n_n_0_1_1128 h
      (broadcastInDim S800000x1 ![0] bcast_S800000_S800000x1_0
        (select (cmpi .slt x1 (broadcastInDim S800000 ![] bcast_S_S800000 (constantI S_ 32 0#32)))
          (addi x1 (broadcastInDim S800000 ![] bcast_S_S800000 (constantI S_ 32 50000#32))) x1)))

/-- The mean of the in-neighbours' rows of `h`: the sums divided, row by row, by the in-degree clamped below at one. -/
def mean128 (h : FVec Ideal S50000x128 .f32) (x1 x2 : IVec S800000 32) : FVec Ideal S50000x128 .f32 :=
  Host.divf (F := Ideal) (sums128 h x1 x2)
    (broadcastInDim S50000x128 ![0, 1] bcast_S50000x1_S50000x128_0_1
      (broadcastInDim S50000x1 ![0] bcast_S50000_S50000x1_0 (clampedDegree x2)))

/-- The rows of a [50000, 256] array `h` gathered along the edges' sources `x1` (a negative source counted from the end,
    as the host normalises it) and added into the edges' destinations `x2`, starting from zero. -/
def sums256 (h : FVec Ideal S50000x256 .f32) (x1 x2 : IVec S800000 32) : FVec Ideal S50000x256 .f32 :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 x2)
    (Host.gather gather_S50000x256_S800000x1_S800000x256_1_0_n_n_0_1_1256 h
      (broadcastInDim S800000x1 ![0] bcast_S800000_S800000x1_0
        (select (cmpi .slt x1 (broadcastInDim S800000 ![] bcast_S_S800000 (constantI S_ 32 0#32)))
          (addi x1 (broadcastInDim S800000 ![] bcast_S_S800000 (constantI S_ 32 50000#32))) x1)))

/-- The mean of the in-neighbours' rows of `h`: the sums divided, row by row, by the in-degree clamped below at one. -/
def mean256 (h : FVec Ideal S50000x256 .f32) (x1 x2 : IVec S800000 32) : FVec Ideal S50000x256 .f32 :=
  Host.divf (F := Ideal) (sums256 h x1 x2)
    (broadcastInDim S50000x256 ![0, 1] bcast_S50000x1_S50000x256_0_1
      (broadcastInDim S50000x1 ![0] bcast_S50000_S50000x1_0 (clampedDegree x2)))

/-- The host's mean of the features' rows is the reference's own stage. -/
theorem mean128_eq (h : FVec Ideal S50000x128 .f32) (x1 x2 : IVec S800000 32) :
    mean128 h x1 x2 = Cert.ReferenceIdeal.Read.val_main_v18 (F := Ideal) h x1 x2 := rfl

/-- The host's mean of a [50000, 256] array's rows is the reference's mean of the same array. -/
theorem mean256_eq (h : FVec Ideal S50000x256 .f32) (x1 x2 : IVec S800000 32) :
    mean256 h x1 x2 = Cert.ReferenceIdeal.Rows.mean256 h x1 x2 := rfl

variable (m : (ℓ : Loc nD τ sig) → Buf (Elt Ideal) ℓ) (ρ : Dev nD → PrngReg)

/-! ## Before the first region -/

/-- No host operation before the first region writes an argument array. -/
theorem W3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl
theorem W3_arg1 (c : Dev nD) : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  after_results_simp <;> rfl
theorem W3_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl
theorem W3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl
theorem W3_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl
theorem W3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl
theorem W3_arg6 (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl
theorem W3_arg7 (c : Dev nD) : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp <;> rfl
theorem W3_arg8 (c : Dev nD) : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp <;> rfl
theorem W3_arg9 (c : Dev nD) : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results_simp <;> rfl
theorem W3_arg10 (c : Dev nD) : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  after_results_simp <;> rfl
theorem W3_arg11 (c : Dev nD) : W3 m ρ c (Proc.devRef .tc main_arg11) = (m ((c : Thread nD τ).loc main_arg11)) := by
  show StableHlo.after hostOps0_2 (StableHlo.after hostOps0_1 (StableHlo.after hostOps0 (W0 m ρ c))) (Proc.devRef .tc main_arg11) = _
  after_results_simp <;> rfl

/-- After the first stretch: the sums of the gathered feature rows, -/
theorem W1_sums (c : Dev nD) : W1 m ρ c (Proc.devRef .tc main_v9) = sums128 (m ((c : Thread nD τ).loc main_arg0)) (m ((c : Thread nD τ).loc main_arg1)) (m ((c : Thread nD τ).loc main_arg2)) := by
  show StableHlo.after hostOps0 (W0 m ρ c) (Proc.devRef .tc main_v9) = _
  after_results_simp <;> rfl
/-- the in-degrees, -/
theorem W1_degree (c : Dev nD) : W1 m ρ c (Proc.devRef .tc main_v13)
    = Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 (m ((c : Thread nD τ).loc main_arg2)))
      (broadcastInDim S800000 ![] bcast_S_S800000 (constant (F := Ideal) S_ .f32 0x3F800000#32)) := by
  show StableHlo.after hostOps0 (W0 m ρ c) (Proc.devRef .tc main_v13) = _
  after_results_simp <;> rfl
/-- and the clamp's lower bound, one. -/
theorem W1_one (c : Dev nD) : W1 m ρ c (Proc.devRef .tc main_cst_3) = constant (F := Ideal) S_ .f32 0x3F800000#32 := by
  show StableHlo.after hostOps0 (W0 m ρ c) (Proc.devRef .tc main_cst_3) = _
  after_results_simp <;> rfl

/-- The clamp: the degrees against one, whatever the stretch found. -/
theorem W2_clamp (c : Dev nD) : W2 m ρ c (Proc.devRef .tc main_v14)
    = (maximumf (broadcastInDim S50000 ![] bcast_S_S50000 (id (W1 m ρ c (Proc.devRef .tc main_cst_3)))) (W1 m ρ c (Proc.devRef .tc main_v13)) : FVec Ideal S50000 .f32) := by
  show StableHlo.after hostOps0_1 (W1 m ρ c) (Proc.devRef .tc main_v14) = _
  generalize W1 m ρ c = Wa
  after_results_simp <;> rfl
/-- The clamp leaves the sums alone. -/
theorem W2_sums (c : Dev nD) : W2 m ρ c (Proc.devRef .tc main_v9) = W1 m ρ c (Proc.devRef .tc main_v9) := by
  show StableHlo.after hostOps0_1 (W1 m ρ c) (Proc.devRef .tc main_v9) = _
  generalize W1 m ρ c = Wa
  after_results_simp <;> rfl

/-- The division: the sums by the clamped degrees repeated along each row. -/
theorem W3_quot (c : Dev nD) : W3 m ρ c (Proc.devRef .tc main_v17)
    = (Host.divf (F := Ideal) (W2 m ρ c (Proc.devRef .tc main_v9))
        (broadcastInDim S50000x128 ![0, 1] bcast_S50000x1_S50000x128_0_1
          (broadcastInDim S50000x1 ![0] bcast_S50000_S50000x1_0 (W2 m ρ c (Proc.devRef .tc main_v14)))) : FVec Ideal S50000x128 .f32) := by
  show StableHlo.after hostOps0_2 (W2 m ρ c) (Proc.devRef .tc main_v17) = _
  generalize W2 m ρ c = Wa
  after_results_simp <;> rfl

/-- THE FIRST REGION'S SECOND OPERAND is the reference's mean of the in-neighbours' features. -/
theorem W3_mean (c : Dev nD) : W3 m ρ c (Proc.devRef .tc main_v17)
    = Cert.ReferenceIdeal.Read.val_main_v18 (F := Ideal) (m ((c : Thread nD τ).loc main_arg0)) (m ((c : Thread nD τ).loc main_arg1)) (m ((c : Thread nD τ).loc main_arg2)) := by
  rw [W3_quot, W2_sums, W2_clamp, W1_sums, W1_degree, W1_one]
  exact mean128_eq _ _ _

/-! ## Between the regions -/

/-- The first region's exit contents at an argument array it does not stage are its entry contents. -/
theorem W4_arg1 (c : Dev nD) : W4 m ρ c (Proc.devRef .tc main_arg1) = (m ((c : Thread nD τ).loc main_arg1)) :=
  (W4_of_ne m ρ c main_arg1 (by decide)).trans (W3_arg1 m ρ c)
theorem W4_arg2 (c : Dev nD) : W4 m ρ c (Proc.devRef .tc main_arg2) = (m ((c : Thread nD τ).loc main_arg2)) :=
  (W4_of_ne m ρ c main_arg2 (by decide)).trans (W3_arg2 m ρ c)
theorem W4_arg6 (c : Dev nD) : W4 m ρ c (Proc.devRef .tc main_arg6) = (m ((c : Thread nD τ).loc main_arg6)) :=
  (W4_of_ne m ρ c main_arg6 (by decide)).trans (W3_arg6 m ρ c)
theorem W4_arg7 (c : Dev nD) : W4 m ρ c (Proc.devRef .tc main_arg7) = (m ((c : Thread nD τ).loc main_arg7)) :=
  (W4_of_ne m ρ c main_arg7 (by decide)).trans (W3_arg7 m ρ c)
theorem W4_arg8 (c : Dev nD) : W4 m ρ c (Proc.devRef .tc main_arg8) = (m ((c : Thread nD τ).loc main_arg8)) :=
  (W4_of_ne m ρ c main_arg8 (by decide)).trans (W3_arg8 m ρ c)
theorem W4_arg9 (c : Dev nD) : W4 m ρ c (Proc.devRef .tc main_arg9) = (m ((c : Thread nD τ).loc main_arg9)) :=
  (W4_of_ne m ρ c main_arg9 (by decide)).trans (W3_arg9 m ρ c)
theorem W4_arg10 (c : Dev nD) : W4 m ρ c (Proc.devRef .tc main_arg10) = (m ((c : Thread nD τ).loc main_arg10)) :=
  (W4_of_ne m ρ c main_arg10 (by decide)).trans (W3_arg10 m ρ c)
theorem W4_arg11 (c : Dev nD) : W4 m ρ c (Proc.devRef .tc main_arg11) = (m ((c : Thread nD τ).loc main_arg11)) :=
  (W4_of_ne m ρ c main_arg11 (by decide)).trans (W3_arg11 m ρ c)
/-- The features, which it stages as an input, are left as entered too. -/
theorem W4_arg0 (c : Dev nD) : W4 m ρ c (Proc.devRef .tc main_arg0) = (m ((c : Thread nD τ).loc main_arg0)) :=
  ((W4_arr m ρ c 0).trans (((dat0 (V3 m ρ) c).arrAt_in 0 rfl _).trans (A_eq0 (V3 m ρ) c 0))).trans (W3_arg0 m ρ c)

/-- No host operation between the regions writes an argument array or the hidden array. -/
theorem W7_arg0 (c : Dev nD) : W7 m ρ c (Proc.devRef .tc main_arg0) = (m ((c : Thread nD τ).loc main_arg0)) := by
  refine Eq.trans ?_ (W4_arg0 m ρ c)
  show StableHlo.after hostOps1_2 (StableHlo.after hostOps1_1 (StableHlo.after hostOps1 (W4 m ρ c))) (Proc.devRef .tc main_arg0) = _
  generalize W4 m ρ c = Wb
  after_results_simp <;> rfl
theorem W7_arg1 (c : Dev nD) : W7 m ρ c (Proc.devRef .tc main_arg1) = (m ((c : Thread nD τ).loc main_arg1)) := by
  refine Eq.trans ?_ (W4_arg1 m ρ c)
  show StableHlo.after hostOps1_2 (StableHlo.after hostOps1_1 (StableHlo.after hostOps1 (W4 m ρ c))) (Proc.devRef .tc main_arg1) = _
  generalize W4 m ρ c = Wb
  after_results_simp <;> rfl
theorem W7_arg2 (c : Dev nD) : W7 m ρ c (Proc.devRef .tc main_arg2) = (m ((c : Thread nD τ).loc main_arg2)) := by
  refine Eq.trans ?_ (W4_arg2 m ρ c)
  show StableHlo.after hostOps1_2 (StableHlo.after hostOps1_1 (StableHlo.after hostOps1 (W4 m ρ c))) (Proc.devRef .tc main_arg2) = _
  generalize W4 m ρ c = Wb
  after_results_simp <;> rfl
theorem W7_arg6 (c : Dev nD) : W7 m ρ c (Proc.devRef .tc main_arg6) = (m ((c : Thread nD τ).loc main_arg6)) := by
  refine Eq.trans ?_ (W4_arg6 m ρ c)
  show StableHlo.after hostOps1_2 (StableHlo.after hostOps1_1 (StableHlo.after hostOps1 (W4 m ρ c))) (Proc.devRef .tc main_arg6) = _
  generalize W4 m ρ c = Wb
  after_results_simp <;> rfl
theorem W7_arg7 (c : Dev nD) : W7 m ρ c (Proc.devRef .tc main_arg7) = (m ((c : Thread nD τ).loc main_arg7)) := by
  refine Eq.trans ?_ (W4_arg7 m ρ c)
  show StableHlo.after hostOps1_2 (StableHlo.after hostOps1_1 (StableHlo.after hostOps1 (W4 m ρ c))) (Proc.devRef .tc main_arg7) = _
  generalize W4 m ρ c = Wb
  after_results_simp <;> rfl
theorem W7_arg8 (c : Dev nD) : W7 m ρ c (Proc.devRef .tc main_arg8) = (m ((c : Thread nD τ).loc main_arg8)) := by
  refine Eq.trans ?_ (W4_arg8 m ρ c)
  show StableHlo.after hostOps1_2 (StableHlo.after hostOps1_1 (StableHlo.after hostOps1 (W4 m ρ c))) (Proc.devRef .tc main_arg8) = _
  generalize W4 m ρ c = Wb
  after_results_simp <;> rfl
theorem W7_arg9 (c : Dev nD) : W7 m ρ c (Proc.devRef .tc main_arg9) = (m ((c : Thread nD τ).loc main_arg9)) := by
  refine Eq.trans ?_ (W4_arg9 m ρ c)
  show StableHlo.after hostOps1_2 (StableHlo.after hostOps1_1 (StableHlo.after hostOps1 (W4 m ρ c))) (Proc.devRef .tc main_arg9) = _
  generalize W4 m ρ c = Wb
  after_results_simp <;> rfl
theorem W7_arg10 (c : Dev nD) : W7 m ρ c (Proc.devRef .tc main_arg10) = (m ((c : Thread nD τ).loc main_arg10)) := by
  refine Eq.trans ?_ (W4_arg10 m ρ c)
  show StableHlo.after hostOps1_2 (StableHlo.after hostOps1_1 (StableHlo.after hostOps1 (W4 m ρ c))) (Proc.devRef .tc main_arg10) = _
  generalize W4 m ρ c = Wb
  after_results_simp <;> rfl
theorem W7_arg11 (c : Dev nD) : W7 m ρ c (Proc.devRef .tc main_arg11) = (m ((c : Thread nD τ).loc main_arg11)) := by
  refine Eq.trans ?_ (W4_arg11 m ρ c)
  show StableHlo.after hostOps1_2 (StableHlo.after hostOps1_1 (StableHlo.after hostOps1 (W4 m ρ c))) (Proc.devRef .tc main_arg11) = _
  generalize W4 m ρ c = Wb
  after_results_simp <;> rfl
theorem W7_hidden (c : Dev nD) : W7 m ρ c (Proc.devRef .tc main_v18) = W4 m ρ c (Proc.devRef .tc main_v18) := by
  show StableHlo.after hostOps1_2 (StableHlo.after hostOps1_1 (StableHlo.after hostOps1 (W4 m ρ c))) (Proc.devRef .tc main_v18) = _
  generalize W4 m ρ c = Wb
  after_results_simp <;> rfl

/-- After the first stretch between the regions: the sums of the gathered hidden rows, -/
theorem W5_sums (c : Dev nD) : W5 m ρ c (Proc.devRef .tc main_v28)
    = sums256 (W4 m ρ c (Proc.devRef .tc main_v18)) (W4 m ρ c (Proc.devRef .tc main_arg1)) (W4 m ρ c (Proc.devRef .tc main_arg2)) := by
  show StableHlo.after hostOps1 (W4 m ρ c) (Proc.devRef .tc main_v28) = _
  generalize W4 m ρ c = Wb
  after_results_simp <;> rfl
/-- the in-degrees, -/
theorem W5_degree (c : Dev nD) : W5 m ρ c (Proc.devRef .tc main_v32)
    = Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 (W4 m ρ c (Proc.devRef .tc main_arg2)))
      (broadcastInDim S800000 ![] bcast_S_S800000 (constant (F := Ideal) S_ .f32 0x3F800000#32)) := by
  show StableHlo.after hostOps1 (W4 m ρ c) (Proc.devRef .tc main_v32) = _
  generalize W4 m ρ c = Wb
  after_results_simp <;> rfl
/-- and the clamp's lower bound, one. -/
theorem W5_one (c : Dev nD) : W5 m ρ c (Proc.devRef .tc main_cst_9) = constant (F := Ideal) S_ .f32 0x3F800000#32 := by
  show StableHlo.after hostOps1 (W4 m ρ c) (Proc.devRef .tc main_cst_9) = _
  generalize W4 m ρ c = Wb
  after_results_simp <;> rfl

theorem W6_clamp (c : Dev nD) : W6 m ρ c (Proc.devRef .tc main_v33)
    = (maximumf (broadcastInDim S50000 ![] bcast_S_S50000 (id (W5 m ρ c (Proc.devRef .tc main_cst_9)))) (W5 m ρ c (Proc.devRef .tc main_v32)) : FVec Ideal S50000 .f32) := by
  show StableHlo.after hostOps1_1 (W5 m ρ c) (Proc.devRef .tc main_v33) = _
  generalize W5 m ρ c = Wa
  after_results_simp <;> rfl
theorem W6_sums (c : Dev nD) : W6 m ρ c (Proc.devRef .tc main_v28) = W5 m ρ c (Proc.devRef .tc main_v28) := by
  show StableHlo.after hostOps1_1 (W5 m ρ c) (Proc.devRef .tc main_v28) = _
  generalize W5 m ρ c = Wa
  after_results_simp <;> rfl

theorem W7_quot (c : Dev nD) : W7 m ρ c (Proc.devRef .tc main_v36)
    = (Host.divf (F := Ideal) (W6 m ρ c (Proc.devRef .tc main_v28))
        (broadcastInDim S50000x256 ![0, 1] bcast_S50000x1_S50000x256_0_1
          (broadcastInDim S50000x1 ![0] bcast_S50000_S50000x1_0 (W6 m ρ c (Proc.devRef .tc main_v33)))) : FVec Ideal S50000x256 .f32) := by
  show StableHlo.after hostOps1_2 (W6 m ρ c) (Proc.devRef .tc main_v36) = _
  generalize W6 m ρ c = Wa
  after_results_simp <;> rfl

/-- THE SECOND REGION'S SECOND OPERAND is the reference's mean of the in-neighbours' rows of whatever the first region
    left as the hidden array. -/
theorem W7_mean (c : Dev nD) : W7 m ρ c (Proc.devRef .tc main_v36)
    = Cert.ReferenceIdeal.Rows.mean256 (W4 m ρ c (Proc.devRef .tc main_v18)) (m ((c : Thread nD τ).loc main_arg1)) (m ((c : Thread nD τ).loc main_arg2)) := by
  rw [W7_quot, W6_sums, W6_clamp, W5_sums, W5_degree, W5_one, W4_arg1, W4_arg2]
  exact mean256_eq _ _ _

end Cert.KernelIdeal.Stages
-- ==== Proof.Region0.lean ====
/-
  The first kernel region: the hidden array after the run.

  The region's 25 grid points each take 2000 consecutive rows of the features and of their neighbourhood mean, the two
  weight matrices and the bias whole, and write back 2000 rows of the hidden array. Row p of point t's block is row
  2000·t + p of the array, so what point t writes back is block t of ONE function of the arrays the region finds: the
  first layer's row function of the node's own rows. The 25 blocks tile the array's 50000 rows (row r lies in block
  r / 2000), so after the run the hidden array is that function everywhere — the same array the reference computes in
  one piece.
-/
import proofs.«168556_j30442728194375_1_alg».proof.Proof.Gen.KernelIdeal.Frame
import proofs.«168556_j30442728194375_1_alg».proof.Proof.Gen.ReferenceIdeal.Read
import proofs.«168556_j30442728194375_1_alg».proof.Proof.KernelBody
import proofs.«168556_j30442728194375_1_alg».proof.Proof.RefRows
import proofs.«168556_j30442728194375_1_alg».proof.Proof.HostStages
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked windows are at block row `t`, block column 0; the
    weights and the bias are always at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## The blocks of a point, for any contents the region may find -/

section Blocks

variable (V : (c : Dev nD) → (b : Ref sig .tc) → Buf (Elt Ideal) ((c : Thread nD τ).loc b))

/-- Row `p` of point `t`'s feature block is row `2000·t + p` of the feature array. -/
theorem rows_x (c : Dev nD) (t : Fin cfg0.N) (p : Fin 2000) (k : Fin 128) (hr : t.val * 2000 + p.val < 50000) :
    iblk0 V c 0 t (ix2 p k) = V c main_arg0 (ix2 (⟨t.val * 2000 + p.val, hr⟩ : Fin 50000) k) := by
  have e := idx_facts t
  show V c main_arg0 (((cfg0.win 0).blk t).view.emb (ix2 p k)) = _
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- Row `p` of point `t`'s block of the neighbourhood mean is row `2000·t + p` of that array. -/
theorem rows_mean (c : Dev nD) (t : Fin cfg0.N) (p : Fin 2000) (k : Fin 128) (hr : t.val * 2000 + p.val < 50000) :
    iblk0 V c 1 t (ix2 p k) = V c main_v17 (ix2 (⟨t.val * 2000 + p.val, hr⟩ : Fin 50000) k) := by
  have e := idx_facts t
  show V c main_v17 (((cfg0.win 1).blk t).view.emb (ix2 p k)) = _
  refine congrArg (V c main_v17) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

/-- Every point's block of the node's own weight matrix is the whole matrix. -/
theorem whole_ws (c : Dev nD) (t : Fin cfg0.N) : iblk0 V c 2 t = V c main_arg3 := by
  have e := idx_facts t
  funext y
  show V c main_arg3 (((cfg0.win 2).blk t).view.emb y) = _
  refine congrArg (V c main_arg3) (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

/-- Every point's block of the neighbours' weight matrix is the whole matrix. -/
theorem whole_wn (c : Dev nD) (t : Fin cfg0.N) : iblk0 V c 3 t = V c main_arg4 := by
  have e := idx_facts t
  funext y
  show V c main_arg4 (((cfg0.win 3).blk t).view.emb y) = _
  refine congrArg (V c main_arg4) (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega

/-- Every point's block of the layer's bias is the whole bias. -/
theorem whole_b (c : Dev nD) (t : Fin cfg0.N) : iblk0 V c 4 t = V c main_arg5 := by
  have e := idx_facts t
  funext y
  show V c main_arg5 (((cfg0.win 4).blk t).view.emb y) = _
  refine congrArg (V c main_arg5) (funext fun a => Fin.ext ?_)
  match a with
  | ⟨0, _⟩ => show win0_4.index t (0 : Fin 1) * 256 + 1 * (y 0).val = (y 0).val; omega

/-- WHAT POINT `t` WRITES BACK is block `t` of a function `G` of the array index, as soon as entry (p, q) of the stored
    block is `G` at (2000·t + p, q). -/
theorem flushed_of (c : Dev nD) (t : Fin cfg0.N) (G : S50000x256.Idx → EReal)
    (hG : ∀ (p : Fin 2000) (q : Fin 256) (hr : t.val * 2000 + p.val < 50000),
      k0_pay1 (F := Ideal) (iblk0 V c 0 t) (iblk0 V c 1 t) (iblk0 V c 2 t) (iblk0 V c 3 t) (iblk0 V c 4 t) (ix2 p q)
        = G (ix2 (⟨t.val * 2000 + p.val, hr⟩ : Fin 50000) q)) :
    (dat0 V c).flushed 5 t = ((cfg0.win 5).blk t).view.read (Elt Ideal) G := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x256) hz2, View.ld_unit_zero (S := S256) hz1]
  have e := idx_facts t
  have hN : t.val < 25 := lt_of_lt_of_eq t.isLt (N_0 : cfg0.N = 25)
  funext j
  have hj0 : (j 0).val < 2000 := (j 0).isLt
  have hj1 : (j 1).val < 256 := (j 1).isLt
  have hr : t.val * 2000 + (j 0).val < 50000 := by omega
  have hemb : ((cfg0.win 5).blk t).view.emb j = ix2 (⟨t.val * 2000 + (j 0).val, hr⟩ : Fin 50000) (⟨(j 1).val, hj1⟩ : Fin 256) := by
    funext a
    apply Fin.ext
    match a with
    | ⟨0, _⟩ => show win0_5.index t (0 : Fin 2) * 2000 + 1 * (j 0).val = t.val * 2000 + (j 0).val; omega
    | ⟨1, _⟩ => show win0_5.index t (1 : Fin 2) * 256 + 1 * (j 1).val = (j 1).val; omega
  have hjj : j = ix2 (⟨(j 0).val, hj0⟩ : Fin 2000) (⟨(j 1).val, hj1⟩ : Fin 256) := by
    funext a
    match a with
    | ⟨0, _⟩ => rfl
    | ⟨1, _⟩ => rfl
  show k0_pay1 (F := Ideal) (iblk0 V c 0 t) (iblk0 V c 1 t) (iblk0 V c 2 t) (iblk0 V c 3 t) (iblk0 V c 4 t) j
      = G (((cfg0.win 5).blk t).view.emb j)
  refine (congrArg (k0_pay1 (F := Ideal) (iblk0 V c 0 t) (iblk0 V c 1 t) (iblk0 V c 2 t) (iblk0 V c 3 t) (iblk0 V c 4 t)) hjj).trans ?_
  exact (hG ⟨(j 0).val, hj0⟩ ⟨(j 1).val, hj1⟩ hr).trans (congrArg G hemb.symm)

end Blocks

/-- An index of the hidden array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v18).slice (win0_5.rect t)).set ↔ _
  rw [View.set_slice_whole, Rect.mem_set_unit]
  exact Iff.rfl

/-- The 25 blocks cover the array: row `r` lies in block `r / 2000`. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have ht : (i 0).val / 2000 < cfg0.N := lt_of_lt_of_eq (show (i 0).val / 2000 < 25 by omega) (N_0 : cfg0.N = 25).symm
  refine ⟨⟨(i 0).val / 2000, ht⟩, flush0_5 _, ?_⟩
  obtain ⟨-, -, -, -, -, -, -, -, -, e50, e51⟩ := idx_facts ⟨(i 0).val / 2000, ht⟩
  rw [mem_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, ht⟩ (1 : Fin 2) * 256 ≤ (i 1).val ∧ (i 1).val < win0_5.index ⟨(i 0).val / 2000, ht⟩ (1 : Fin 2) * 256 + 256
    rw [e51]; omega

/-! ## At the contents the first region finds -/

variable (m : (ℓ : Loc nD τ sig) → Buf (Elt Ideal) ℓ) (ρ : Dev nD → PrngReg)

/-- The hidden array as the reference's own stage of the argument arrays. -/
abbrev hidden (c : Dev nD) : S50000x256.Idx → EReal :=
  Cert.ReferenceIdeal.Read.val_main_v24 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- One entry of a stored block against one entry of the reference's hidden array: equal once the block's rows are the
    array's rows at the node in question, and the weights and the bias are the arrays'. -/
theorem entry_eq (X : FVec Ideal S50000x128 .f32) (x1 x2 : IVec S800000 32) (Ws Wn : FVec Ideal S128x256 .f32) (b : FVec Ideal S256 .f32)
    (b0 b1 : Vec Ideal S2000x128 .f32) (b2 b3 : Vec Ideal S128x256 .f32) (b4 : Vec Ideal S256 .f32) (p : Fin 2000) (q : Fin 256) (r : Fin 50000)
    (h0 : ∀ k : Fin 128, b0 (ix2 p k) = X (ix2 r k))
    (h1 : ∀ k : Fin 128, b1 (ix2 p k) = Cert.ReferenceIdeal.Read.val_main_v18 (F := Ideal) X x1 x2 (ix2 r k))
    (h2 : b2 = Ws) (h3 : b3 = Wn) (h4 : b4 = b) :
    k0_pay1 (F := Ideal) b0 b1 b2 b3 b4 (ix2 p q) = Cert.ReferenceIdeal.Read.val_main_v24 (F := Ideal) X x1 x2 Ws Wn b (ix2 r q) := by
  subst h2 h3 h4
  rw [Body.pay0_apply, Cert.ReferenceIdeal.Rows.hidden_apply, funext h0, funext h1]

/-- WHAT POINT `t` WRITES BACK is block `t` of the reference's hidden array. -/
theorem flushed_eq (c : Dev nD) (t : Fin cfg0.N) :
    (dat0 (V3 m ρ) c).flushed 5 t = ((cfg0.win 5).blk t).view.read (Elt Ideal) (hidden m c) :=
  flushed_of (V3 m ρ) c t (hidden m c) fun p q hr =>
    entry_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (iblk0 (V3 m ρ) c 0 t) (iblk0 (V3 m ρ) c 1 t) (iblk0 (V3 m ρ) c 2 t) (iblk0 (V3 m ρ) c 3 t) (iblk0 (V3 m ρ) c 4 t) p q ⟨t.val * 2000 + p.val, hr⟩
      (fun k => (rows_x (V3 m ρ) c t p k hr).trans (congrFun (Stages.W3_arg0 m ρ c) _))
      (fun k => (rows_mean (V3 m ρ) c t p k hr).trans (congrFun (Stages.W3_mean m ρ c) _))
      ((whole_ws (V3 m ρ) c t).trans (Stages.W3_arg3 m ρ c))
      ((whole_wn (V3 m ρ) c t).trans (Stages.W3_arg4 m ρ c))
      ((whole_b (V3 m ρ) c t).trans (Stages.W3_arg5 m ρ c))

/-- THE HIDDEN ARRAY AFTER THE REGION is the reference's hidden array of the argument arrays. -/
theorem final (c : Dev nD) : (dat0 (V3 m ρ) c).arrAt 5 cfg0.N = hidden m c :=
  (dat0 (V3 m ρ) c).arrAt_eq_of_cover 5 (hidden m c) (fun t _ => flushed_eq m ρ c t) (cover)

end Cert.KernelIdeal.Region0
-- ==== Proof.Region1.lean ====
/-
  The second kernel region: the result array after the run.

  The region's 25 grid points each take 2000 consecutive rows of the hidden array the first region left, of the mean of
  its in-neighbours' rows that the host computed in between, and of the features; the weights and the biases whole;
  and write back 2000 rows of the two-column result. As in the first region, row p of point t's block is row
  2000·t + p of the array, what point t writes back is block t of one function of the arrays the region finds — the
  head's row function of the node's own rows —, and the 25 blocks tile the 50000 rows. The arrays the region finds are
  the reference's own stages: the hidden array by the first region's value, its neighbourhood mean because the host
  applies the reference's operations to it. So the result array ends as the reference's result.
-/
import proofs.«168556_j30442728194375_1_alg».proof.Proof.Gen.KernelIdeal.Frame
import proofs.«168556_j30442728194375_1_alg».proof.Proof.Gen.ReferenceIdeal.Read
import proofs.«168556_j30442728194375_1_alg».proof.Proof.KernelBody
import proofs.«168556_j30442728194375_1_alg».proof.Proof.RefRows
import proofs.«168556_j30442728194375_1_alg».proof.Proof.HostStages
import proofs.«168556_j30442728194375_1_alg».proof.Proof.Region0
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs and the output are at block row `t`, block
    column 0; the weights and the biases are always at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-! ## The blocks of a point, for any contents the region may find -/

section Blocks

variable (V : (c : Dev nD) → (b : Ref sig .tc) → Buf (Elt Ideal) ((c : Thread nD τ).loc b))

/-- Row `p` of point `t`'s hidden block is row `2000·t + p` of the hidden array. -/
theorem rows_h (c : Dev nD) (t : Fin cfg1.N) (p : Fin 2000) (k : Fin 256) (hr : t.val * 2000 + p.val < 50000) :
    iblk1 V c 0 t (ix2 p k) = V c main_v18 (ix2 (⟨t.val * 2000 + p.val, hr⟩ : Fin 50000) k) := by
  have e := idx_facts t
  show V c main_v18 (((cfg1.win 0).blk t).view.emb (ix2 p k)) = _
  refine congrArg (V c main_v18) (funext fun a => Fin.ext ?_)
  match a with
  | ⟨0, _⟩ => show win1_0.index t (0 : Fin 2) * 2000 + 1 * p.val = t.val * 2000 + p.val; omega
  | ⟨1, _⟩ => show win1_0.index t (1 : Fin 2) * 256 + 1 * k.val = k.val; omega

/-- Row `p` of point `t`'s block of the neighbourhood mean is row `2000·t + p` of that array. -/
theorem rows_mean (c : Dev nD) (t : Fin cfg1.N) (p : Fin 2000) (k : Fin 256) (hr : t.val * 2000 + p.val < 50000) :
    iblk1 V c 1 t (ix2 p k) = V c main_v36 (ix2 (⟨t.val * 2000 + p.val, hr⟩ : Fin 50000) k) := by
  have e := idx_facts t
  show V c main_v36 (((cfg1.win 1).blk t).view.emb (ix2 p k)) = _
  refine congrArg (V c main_v36) (funext fun a => Fin.ext ?_)
  match a with
  | ⟨0, _⟩ => show win1_1.index t (0 : Fin 2) * 2000 + 1 * p.val = t.val * 2000 + p.val; omega
  | ⟨1, _⟩ => show win1_1.index t (1 : Fin 2) * 256 + 1 * k.val = k.val; omega

/-- Row `p` of point `t`'s feature block is row `2000·t + p` of the features. -/
theorem rows_x (c : Dev nD) (t : Fin cfg1.N) (p : Fin 2000) (k : Fin 128) (hr : t.val * 2000 + p.val < 50000) :
    iblk1 V c 2 t (ix2 p k) = V c main_arg0 (ix2 (⟨t.val * 2000 + p.val, hr⟩ : Fin 50000) k) := by
  have e := idx_facts t
  show V c main_arg0 (((cfg1.win 2).blk t).view.emb (ix2 p k)) = _
  refine congrArg (V c main_arg0) (funext fun a => Fin.ext ?_)
  match a with
  | ⟨0, _⟩ => show win1_2.index t (0 : Fin 2) * 2000 + 1 * p.val = t.val * 2000 + p.val; omega
  | ⟨1, _⟩ => show win1_2.index t (1 : Fin 2) * 128 + 1 * k.val = k.val; omega

/-- Every point's block of the node's own weight matrix is the whole matrix. -/
theorem whole_ws (c : Dev nD) (t : Fin cfg1.N) : iblk1 V c 3 t = V c main_arg6 := by
  have e := idx_facts t
  funext y
  show V c main_arg6 (((cfg1.win 3).blk t).view.emb y) = _
  refine congrArg (V c main_arg6) (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega

/-- Every point's block of the neighbours' weight matrix is the whole matrix. -/
theorem whole_wn (c : Dev nD) (t : Fin cfg1.N) : iblk1 V c 4 t = V c main_arg7 := by
  have e := idx_facts t
  funext y
  show V c main_arg7 (((cfg1.win 4).blk t).view.emb y) = _
  refine congrArg (V c main_arg7) (funext fun a => Fin.ext ?_)
  match a with
  | ⟨0, _⟩ => show win1_4.index t (0 : Fin 2) * 256 + 1 * (y 0).val = (y 0).val; omega
  | ⟨1, _⟩ => show win1_4.index t (1 : Fin 2) * 256 + 1 * (y 1).val = (y 1).val; omega

/-- Every point's block of the layer's bias is the whole bias. -/
theorem whole_b (c : Dev nD) (t : Fin cfg1.N) : iblk1 V c 5 t = V c main_arg8 := by
  have e := idx_facts t
  funext y
  show V c main_arg8 (((cfg1.win 5).blk t).view.emb y) = _
  refine congrArg (V c main_arg8) (funext fun a => Fin.ext ?_)
  match a with
  | ⟨0, _⟩ => show win1_5.index t (0 : Fin 1) * 256 + 1 * (y 0).val = (y 0).val; omega

/-- Every point's block of the residual weight matrix is the whole matrix. -/
theorem whole_wres (c : Dev nD) (t : Fin cfg1.N) : iblk1 V c 6 t = V c main_arg9 := by
  have e := idx_facts t
  funext y
  show V c main_arg9 (((cfg1.win 6).blk t).view.emb y) = _
  refine congrArg (V c main_arg9) (funext fun a => Fin.ext ?_)
  match a with
  | ⟨0, _⟩ => show win1_6.index t (0 : Fin 2) * 128 + 1 * (y 0).val = (y 0).val; omega
  | ⟨1, _⟩ => show win1_6.index t (1 : Fin 2) * 256 + 1 * (y 1).val = (y 1).val; omega

/-- Every point's block of the head's weight matrix is the whole matrix. -/
theorem whole_wmlp (c : Dev nD) (t : Fin cfg1.N) : iblk1 V c 7 t = V c main_arg10 := by
  have e := idx_facts t
  funext y
  show V c main_arg10 (((cfg1.win 7).blk t).view.emb y) = _
  refine congrArg (V c main_arg10) (funext fun a => Fin.ext ?_)
  match a with
  | ⟨0, _⟩ => show win1_7.index t (0 : Fin 2) * 256 + 1 * (y 0).val = (y 0).val; omega
  | ⟨1, _⟩ => show win1_7.index t (1 : Fin 2) * 2 + 1 * (y 1).val = (y 1).val; omega

/-- Every point's block of the head's bias is the whole bias. -/
theorem whole_bmlp (c : Dev nD) (t : Fin cfg1.N) : iblk1 V c 8 t = V c main_arg11 := by
  have e := idx_facts t
  funext y
  show V c main_arg11 (((cfg1.win 8).blk t).view.emb y) = _
  refine congrArg (V c main_arg11) (funext fun a => Fin.ext ?_)
  match a with
  | ⟨0, _⟩ => show win1_8.index t (0 : Fin 1) * 2 + 1 * (y 0).val = (y 0).val; omega

/-- WHAT POINT `t` WRITES BACK is block `t` of a function `G` of the array index, as soon as entry (p, q) of the stored
    block is `G` at (2000·t + p, q). -/
theorem flushed_of (c : Dev nD) (t : Fin cfg1.N) (G : S50000x2.Idx → EReal)
    (hG : ∀ (p : Fin 2000) (q : Fin 2) (hr : t.val * 2000 + p.val < 50000),
      k1_pay1 (F := Ideal) (iblk1 V c 0 t) (iblk1 V c 1 t) (iblk1 V c 2 t) (iblk1 V c 3 t) (iblk1 V c 4 t) (iblk1 V c 6 t) (iblk1 V c 5 t) (iblk1 V c 7 t) (iblk1 V c 8 t) (ix2 p q)
        = G (ix2 (⟨t.val * 2000 + p.val, hr⟩ : Fin 50000) q)) :
    (dat1 V c).flushed 9 t = ((cfg1.win 9).blk t).view.read (Elt Ideal) G := by
  show (cfg1.win 9).cut (grid1.coords t) ((dat1 V c).after 9 t) = _
  rw [after1_9]
  unfold out1_9
  rw [View.canon_unit_zero hz2]
  simp only [View.ld_unit_zero (S := S2000x256) hz2, View.ld_unit_zero (S := S2000x128) hz2, View.ld_unit_zero (S := S256x256) hz2,
    View.ld_unit_zero (S := S128x256) hz2, View.ld_unit_zero (S := S256) hz1, View.ld_unit_zero (S := S256x2) hz2,
    View.ld_unit_zero (S := S2) hz1]
  have e := idx_facts t
  have hN : t.val < 25 := lt_of_lt_of_eq t.isLt (N_1 : cfg1.N = 25)
  funext j
  have hj0 : (j 0).val < 2000 := (j 0).isLt
  have hj1 : (j 1).val < 2 := (j 1).isLt
  have hr : t.val * 2000 + (j 0).val < 50000 := by omega
  have hemb : ((cfg1.win 9).blk t).view.emb j = ix2 (⟨t.val * 2000 + (j 0).val, hr⟩ : Fin 50000) (⟨(j 1).val, hj1⟩ : Fin 2) := by
    funext a
    apply Fin.ext
    match a with
    | ⟨0, _⟩ => show win1_9.index t (0 : Fin 2) * 2000 + 1 * (j 0).val = t.val * 2000 + (j 0).val; omega
    | ⟨1, _⟩ => show win1_9.index t (1 : Fin 2) * 2 + 1 * (j 1).val = (j 1).val; omega
  have hjj : j = ix2 (⟨(j 0).val, hj0⟩ : Fin 2000) (⟨(j 1).val, hj1⟩ : Fin 2) := by
    funext a
    match a with
    | ⟨0, _⟩ => rfl
    | ⟨1, _⟩ => rfl
  show k1_pay1 (F := Ideal) (iblk1 V c 0 t) (iblk1 V c 1 t) (iblk1 V c 2 t) (iblk1 V c 3 t) (iblk1 V c 4 t) (iblk1 V c 6 t) (iblk1 V c 5 t) (iblk1 V c 7 t) (iblk1 V c 8 t) j = G (((cfg1.win 9).blk t).view.emb j)
  refine (congrArg (k1_pay1 (F := Ideal) (iblk1 V c 0 t) (iblk1 V c 1 t) (iblk1 V c 2 t) (iblk1 V c 3 t) (iblk1 V c 4 t) (iblk1 V c 6 t) (iblk1 V c 5 t) (iblk1 V c 7 t) (iblk1 V c 8 t)) hjj).trans ?_
  exact (hG ⟨(j 0).val, hj0⟩ ⟨(j 1).val, hj1⟩ hr).trans (congrArg G hemb.symm)

end Blocks

/-- An index of the result array is in point `t`'s block iff each coordinate is in the block's range on its axis. -/
theorem mem_blk (t : Fin cfg1.N) (i : S50000x2.Idx) :
    i ∈ ((cfg1.win 9).blk t).view.set ↔ ∀ a : Fin 2, win1_9.index t a * S2000x2.size a ≤ (i a).val ∧ (i a).val < win1_9.index t a * S2000x2.size a + S2000x2.size a := by
  show i ∈ ((View.whole main_v37).slice (win1_9.rect t)).set ↔ _
  rw [View.set_slice_whole, Rect.mem_set_unit]
  exact Iff.rfl

/-- The 25 blocks cover the array: row `r` lies in block `r / 2000`. -/
theorem cover (i : S50000x2.Idx) : ∃ t : Fin cfg1.N, (cfg1.win 9).flush t = true ∧ i ∈ ((cfg1.win 9).blk t).view.set := by
  have hi0 : (i 0).val < 50000 := (i 0).isLt
  have hi1 : (i 1).val < 2 := (i 1).isLt
  have ht : (i 0).val / 2000 < cfg1.N := lt_of_lt_of_eq (show (i 0).val / 2000 < 25 by omega) (N_1 : cfg1.N = 25).symm
  refine ⟨⟨(i 0).val / 2000, ht⟩, flush1_9 _, ?_⟩
  have e := idx_facts ⟨(i 0).val / 2000, ht⟩
  rw [mem_blk]
  intro a
  match a with
  | ⟨0, _⟩ =>
    show win1_9.index ⟨(i 0).val / 2000, ht⟩ (0 : Fin 2) * 2000 ≤ (i 0).val ∧ (i 0).val < win1_9.index ⟨(i 0).val / 2000, ht⟩ (0 : Fin 2) * 2000 + 2000
    rw [e.2.2.2.2.2.2.2.2.2.2.2.2.2.2.2.2.1]; show (i 0).val / 2000 * 2000 ≤ (i 0).val ∧ (i 0).val < (i 0).val / 2000 * 2000 + 2000; omega
  | ⟨1, _⟩ =>
    show win1_9.index ⟨(i 0).val / 2000, ht⟩ (1 : Fin 2) * 2 ≤ (i 1).val ∧ (i 1).val < win1_9.index ⟨(i 0).val / 2000, ht⟩ (1 : Fin 2) * 2 + 2
    rw [e.2.2.2.2.2.2.2.2.2.2.2.2.2.2.2.2.2]; omega

/-! ## At the contents the second region finds -/

variable (m : (ℓ : Loc nD τ sig) → Buf (Elt Ideal) ℓ) (ρ : Dev nD → PrngReg)

/-- The result array as the reference's own last stage of the argument arrays. -/
abbrev result (c : Dev nD) : S50000x2.Idx → EReal :=
  Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The reference's second neighbourhood mean of the argument arrays. -/
abbrev mean2 (c : Dev nD) : S50000x256.Idx → EReal :=
  Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The first region's exit contents at the hidden array: the reference's hidden array. -/
theorem exit_hidden (c : Dev nD) : W4 m ρ c (Proc.devRef .tc main_v18) = Region0.hidden m c :=
  (W4_arr m ρ c 5).trans (Region0.final m ρ c)

/-- The hidden array, untouched between the regions, is what the first region left. -/
theorem entry_hidden (c : Dev nD) : W7 m ρ c (Proc.devRef .tc main_v18) = Region0.hidden m c :=
  (Stages.W7_hidden m ρ c).trans (exit_hidden m ρ c)

/-- The mean the host computed between the regions is the reference's second neighbourhood mean. -/
theorem entry_mean (c : Dev nD) : W7 m ρ c (Proc.devRef .tc main_v36) = mean2 m c :=
  (Stages.W7_mean m ρ c).trans
    ((congrArg (fun h => Cert.ReferenceIdeal.Rows.mean256 h (m ((c : Thread nD τ).loc main_arg1)) (m ((c : Thread nD τ).loc main_arg2))) (exit_hidden m ρ c)).trans
      (Cert.ReferenceIdeal.Rows.val_main_v43_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm)

/-- One entry of a stored block against one entry of the reference's result: equal once the block's rows are the
    reference's rows at the node in question, and the weights and the biases are the arrays'. -/
theorem entry_eq (X : FVec Ideal S50000x128 .f32) (x1 x2 : IVec S800000 32) (W1s W1n : FVec Ideal S128x256 .f32) (b1 : FVec Ideal S256 .f32)
    (Ws2 Wn2 : FVec Ideal S256x256 .f32) (b2 : FVec Ideal S256 .f32) (Wres : FVec Ideal S128x256 .f32) (Wmlp : FVec Ideal S256x2 .f32)
    (bmlp : FVec Ideal S2 .f32) (k0 k1 : Vec Ideal S2000x256 .f32) (k2 : Vec Ideal S2000x128 .f32)
    (k3 k4 : Vec Ideal S256x256 .f32) (k6 : Vec Ideal S128x256 .f32) (k5 : Vec Ideal S256 .f32) (k7 : Vec Ideal S256x2 .f32) (k8 : Vec Ideal S2 .f32)
    (p : Fin 2000) (q : Fin 2) (r : Fin 50000)
    (h0 : ∀ k : Fin 256, k0 (ix2 p k) = Cert.ReferenceIdeal.Read.val_main_v24 (F := Ideal) X x1 x2 W1s W1n b1 (ix2 r k))
    (h1 : ∀ k : Fin 256, k1 (ix2 p k) = Cert.ReferenceIdeal.Read.val_main_v43 (F := Ideal) X x1 x2 W1s W1n b1 (ix2 r k))
    (h2 : ∀ k : Fin 128, k2 (ix2 p k) = X (ix2 r k))
    (h3 : k3 = Ws2) (h4 : k4 = Wn2) (h6 : k6 = Wres) (h5 : k5 = b2) (h7 : k7 = Wmlp) (h8 : k8 = bmlp) :
    k1_pay1 (F := Ideal) k0 k1 k2 k3 k4 k6 k5 k7 k8 (ix2 p q)
      = Cert.ReferenceIdeal.Read.val_main_v54 (F := Ideal) X x1 x2 W1s W1n b1 Ws2 Wn2 b2 Wres Wmlp bmlp (ix2 r q) := by
  subst h3 h4 h6 h5 h7 h8
  rw [Body.pay1_apply, Cert.ReferenceIdeal.Rows.result_apply, funext h0, funext h1, funext h2]

/-- WHAT POINT `t` WRITES BACK is block `t` of the reference's result. -/
theorem flushed_eq (c : Dev nD) (t : Fin cfg1.N) :
    (dat1 (V7 m ρ) c).flushed 9 t = ((cfg1.win 9).blk t).view.read (Elt Ideal) (result m c) :=
  flushed_of (V7 m ρ) c t (result m c) fun p q hr =>
    entry_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      (iblk1 (V7 m ρ) c 0 t) (iblk1 (V7 m ρ) c 1 t) (iblk1 (V7 m ρ) c 2 t) (iblk1 (V7 m ρ) c 3 t) (iblk1 (V7 m ρ) c 4 t) (iblk1 (V7 m ρ) c 6 t) (iblk1 (V7 m ρ) c 5 t) (iblk1 (V7 m ρ) c 7 t) (iblk1 (V7 m ρ) c 8 t) p q ⟨t.val * 2000 + p.val, hr⟩
      (fun k => (rows_h (V7 m ρ) c t p k hr).trans (congrFun (entry_hidden m ρ c) _))
      (fun k => (rows_mean (V7 m ρ) c t p k hr).trans (congrFun (entry_mean m ρ c) _))
      (fun k => (rows_x (V7 m ρ) c t p k hr).trans (congrFun (Stages.W7_arg0 m ρ c) _))
      ((whole_ws (V7 m ρ) c t).trans (Stages.W7_arg6 m ρ c))
      ((whole_wn (V7 m ρ) c t).trans (Stages.W7_arg7 m ρ c))
      ((whole_wres (V7 m ρ) c t).trans (Stages.W7_arg9 m ρ c))
      ((whole_b (V7 m ρ) c t).trans (Stages.W7_arg8 m ρ c))
      ((whole_wmlp (V7 m ρ) c t).trans (Stages.W7_arg10 m ρ c))
      ((whole_bmlp (V7 m ρ) c t).trans (Stages.W7_arg11 m ρ c))

/-- THE RESULT ARRAY AFTER THE REGION is the reference's result of the argument arrays. -/
theorem final (c : Dev nD) : (dat1 (V7 m ρ) c).arrAt 9 cfg1.N = result m c :=
  (dat1 (V7 m ρ) c).arrAt_eq_of_cover 9 (result m c) (fun t _ => flushed_eq m ρ c t) (cover)

end Cert.KernelIdeal.Region1
-- ==== Proof.lean ====
/-
  A two-layer neighbourhood-averaging network on a graph of 50000 nodes and 800000 edges, computed by two tiled kernels,
  against the same network computed in one piece.

  Both programs compute, for every node v with feature row x_v:

      a1_v = mean of x_u over the edges u → v                       (divided by the in-degree clamped below at one)
      h_v  = max( x_v · Wself1 + a1_v · Wneigh1 + b1 , 0 )
      a2_v = mean of h_u over the edges u → v
      out_v = ( ( h_v · Wself2 + a2_v · Wneigh2 + b2 ) + x_v · Wres ) · Wmlp + bmlp .

  The two neighbourhood means are host operations in both programs — the same gather along the sources, the same
  scatter-add into the destinations, the same clamp and division — and are carried as one function each, never opened.
  The reference computes the two dense layers as whole-array products. The kernel program computes each dense layer in
  a kernel region of 25 grid points, 2000 nodes to a point; its bodies round their operands to bf16 before the matrix
  unit, which is the identity on the extended reals, and a product into a zero accumulator is the plain sum of
  products. A node's output row depends on that node's own rows only, so a block of 2000 nodes computed alone holds
  the rows the whole-array computation holds, and the 25 blocks tile the 50000 nodes: after each region its output
  array is the reference's stage, index by index, with the sums associated the same way on both sides. No law of the
  extended reals is needed and the precondition (finite inputs) is never opened.

  The frames of the two kernel programs and the run of the reference are the generated modules'; the ideal pass rewrote
  nothing, so the idealization claim is trivial.
-/
import proofs.«168556_j30442728194375_1_alg».proof.Defs
import proofs.«168556_j30442728194375_1_alg».proof.Proof.Gen.Kernel
import proofs.«168556_j30442728194375_1_alg».proof.Proof.Gen.Kernel.Skeleton
import proofs.«168556_j30442728194375_1_alg».proof.Proof.Gen.Kernel.Launch
import proofs.«168556_j30442728194375_1_alg».proof.Proof.Gen.Kernel.Points
import proofs.«168556_j30442728194375_1_alg».proof.Proof.Gen.Kernel.Frame
import proofs.«168556_j30442728194375_1_alg».proof.Proof.Gen.KernelIdeal
import proofs.«168556_j30442728194375_1_alg».proof.Proof.Gen.KernelIdeal.Skeleton
import proofs.«168556_j30442728194375_1_alg».proof.Proof.Gen.KernelIdeal.Launch
import proofs.«168556_j30442728194375_1_alg».proof.Proof.Gen.KernelIdeal.Points
import proofs.«168556_j30442728194375_1_alg».proof.Proof.Gen.KernelIdeal.Frame
import proofs.«168556_j30442728194375_1_alg».proof.Proof.Gen.ReferenceIdeal
import proofs.«168556_j30442728194375_1_alg».proof.Proof.Gen.Pre_finite_inputs
import proofs.«168556_j30442728194375_1_alg».proof.Proof.Gen.ReferenceIdeal.Run
import proofs.«168556_j30442728194375_1_alg».proof.Proof.Gen.ReferenceIdeal.Read
import proofs.«168556_j30442728194375_1_alg».proof.Proof.KernelRun
import proofs.«168556_j30442728194375_1_alg».proof.Proof.Region1
import Idealize.ShloMosaic.Adequacy
import Idealize.ShloMosaic.Init

set_option maxRecDepth 16384

noncomputable section

namespace Cert.Proof

open Idealize.ShloMosaic Idealize.ShloMosaic.TcCoe Idealize.SL.Sem

/-- The kernel program's run at the extended reals: the result array ends as the reference's last stage of the argument
    arrays, and the argument arrays end as launched. The result array is the second region's output window; the
    arguments read back through the host stretches and the regions to the launch memory. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v37) = Cert.KernelIdeal.Region1.result m c
        ∧ r.2.mem ((c.tc : Thread Cert.KernelIdeal.nD Cert.KernelIdeal.τ).loc Cert.KernelIdeal.main_arg0) = (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg1) = (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg2) = (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg3) = (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg4) = (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg5) = (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg6) = (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_arg7) = (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg8) = (m ((c.tc : Thread Cert.KernelIdeal.nD Cert.KernelIdeal.τ).loc Cert.KernelIdeal.main_arg8))
        ∧ r.2.mem ((c.tc : Thread Cert.KernelIdeal.nD Cert.KernelIdeal.τ).loc Cert.KernelIdeal.main_arg9) = (m ((c.tc : Thread Cert.KernelIdeal.nD Cert.KernelIdeal.τ).loc Cert.KernelIdeal.main_arg9))
        ∧ r.2.mem ((c.tc : Thread Cert.KernelIdeal.nD Cert.KernelIdeal.τ).loc Cert.KernelIdeal.main_arg10) = (m ((c.tc : Thread Cert.KernelIdeal.nD Cert.KernelIdeal.τ).loc Cert.KernelIdeal.main_arg10))
        ∧ r.2.mem ((c.tc : Thread Cert.KernelIdeal.nD Cert.KernelIdeal.τ).loc Cert.KernelIdeal.main_arg11) = (m ((c.tc : Thread Cert.KernelIdeal.nD Cert.KernelIdeal.τ).loc Cert.KernelIdeal.main_arg11))) :=
  (θ_run (Cert.KernelIdeal.defs (F := Ideal)) _ _).mono (fun r h c =>
    ⟨(h c _ (Cert.KernelIdeal.Gen.mem_uc Cert.KernelIdeal.main_v37 (by decide))).trans
        ((Cert.KernelIdeal.Gen.W8_arr m ρ c 9).trans (Cert.KernelIdeal.Region1.final m ρ c)),
     (h c _ (Cert.KernelIdeal.Gen.mem_uc Cert.KernelIdeal.main_arg0 (by decide))).trans (Cert.KernelIdeal.Gen.W8_main_arg0 m ρ c),
     (h c _ (Cert.KernelIdeal.Gen.mem_uc Cert.KernelIdeal.main_arg1 (by decide))).trans (Cert.KernelIdeal.Gen.W8_main_arg1 m ρ c),
     (h c _ (Cert.KernelIdeal.Gen.mem_uc Cert.KernelIdeal.main_arg2 (by decide))).trans (Cert.KernelIdeal.Gen.W8_main_arg2 m ρ c),
     (h c _ (Cert.KernelIdeal.Gen.mem_uc Cert.KernelIdeal.main_arg3 (by decide))).trans (Cert.KernelIdeal.Gen.W8_main_arg3 m ρ c),
     (h c _ (Cert.KernelIdeal.Gen.mem_uc Cert.KernelIdeal.main_arg4 (by decide))).trans (Cert.KernelIdeal.Gen.W8_main_arg4 m ρ c),
     (h c _ (Cert.KernelIdeal.Gen.mem_uc Cert.KernelIdeal.main_arg5 (by decide))).trans (Cert.KernelIdeal.Gen.W8_main_arg5 m ρ c),
     (h c _ (Cert.KernelIdeal.Gen.mem_uc Cert.KernelIdeal.main_arg6 (by decide))).trans (Cert.KernelIdeal.Gen.W8_main_arg6 m ρ c),
     (h c _ (Cert.KernelIdeal.Gen.mem_uc Cert.KernelIdeal.main_arg7 (by decide))).trans (Cert.KernelIdeal.Gen.W8_main_arg7 m ρ c),
     (h c _ (Cert.KernelIdeal.Gen.mem_uc Cert.KernelIdeal.main_arg8 (by decide))).trans (Cert.KernelIdeal.Gen.W8_main_arg8 m ρ c),
     (h c _ (Cert.KernelIdeal.Gen.mem_uc Cert.KernelIdeal.main_arg9 (by decide))).trans (Cert.KernelIdeal.Gen.W8_main_arg9 m ρ c),
     (h c _ (Cert.KernelIdeal.Gen.mem_uc Cert.KernelIdeal.main_arg10 (by decide))).trans (Cert.KernelIdeal.Gen.W8_main_arg10 m ρ c),
     (h c _ (Cert.KernelIdeal.Gen.mem_uc Cert.KernelIdeal.main_arg11 (by decide))).trans (Cert.KernelIdeal.Gen.W8_main_arg11 m ρ c)⟩)
    (Cert.KernelIdeal.Run.run_all m ρ)

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the reference's last stage of those arguments in
    their result arrays. -/
theorem algebraic : Cert.algebraic_KernelIdeal_ReferenceIdeal := by
  intro m ρ m' ρ' _ hagree
  refine ⟨fun c => Cert.KernelIdeal.Region1.result m c, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v54_eq, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
